-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x16384x256 : Shape := ⟨3, ![16, 16384, 256]⟩
abbrev S256x256 : Shape := ⟨2, ![256, 256]⟩
abbrev S256 : Shape := ⟨1, ![256]⟩
abbrev S768x256 : Shape := ⟨2, ![768, 256]⟩
abbrev S768 : Shape := ⟨1, ![768]⟩
abbrev S_ : Shape := ⟨0, ![]⟩

class Facts : Prop where
  bcast_S_S16x16384x256 : S_.BroadcastsInDim S16x16384x256 (![] : Fin 0 → Fin S16x16384x256.rank)
  reducesTo_S16x16384x256_S_d0_1_2 : S16x16384x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768x256 .f32) (main_arg5 : FVec F S768 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S768x256 .f32 := Host.absf main_arg4
  let main_cst_6 : FVec F S_ .f32 := constant S_ .f32 0x7F800000#32
  let main_v20 : FVec F S768x256 .f32 := broadcastInDim S768x256 ![] bcast_S_S768x256 main_cst_6
  let main_v21 : IVec S768x256 1 := cmpf .olt main_v19 main_v20
  let main_c_7 : IVec S_ 1 := constantI S_ 1 1#1
  let main_v22 : IVec S_ 1 := (fun x v => Host.reduce IntOp.andi x v reducesTo_S768x256_S_d0_1 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  main_v28

def fn {F : FTy → Type} [FloatOps F] (main_arg0 : FVec F S16x16384x256 .f32) (main_arg1 : FVec F S16x16384x256 .f32) (main_arg2 : FVec F S256x256 .f32) (main_arg3 : FVec F S256 .f32) (main_arg4 : FVec F S768x256 .f32) (main_arg5 : FVec F S768 .f32) : IVec S_ 1 :=
  let main_v0 : FVec F S16x16384x256 .f32 := Host.absf main_arg0
  let main_cst : FVec F S_ .f32 := constant S_ .f32 0x7F800000#32
  let main_v1 : FVec F S16x16384x256 .f32 := broadcastInDim S16x16384x256 ![] bcast_S_S16x16384x256 main_cst
  let main_v2 : IVec S16x16384x256 1 := cmpf .olt main_v0 main_v1
  let main_c : IVec S_ 1 := constantI S_ 1 1#1
  let main_v3 : IVec S_ 1 := (fun x v => Host.reduce IntOp.andi x v reducesTo_S16x16384x256_S_d0_1_2 h_S_) main_v2 main_c
  let main_v4 : FVec F S16x16384x256 .f32 := Host.absf main_arg1
  let main_cst_0 : FVec F S_ .f32 := constant S_ .f32 0x7F800000#32
  let main_v5 : FVec F S16x16384x256 .f32 := broadcastInDim S16x16384x256 ![] bcast_S_S16x16384x256 main_cst_0
  let main_v6 : IVec S16x16384x256 1 := cmpf .olt main_v4 main_v5
  let main_c_1 : IVec S_ 1 := constantI S_ 1 1#1
  let main_v7 : IVec S_ 1 := (fun x v => Host.reduce IntOp.andi x v reducesTo_S16x16384x256_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S16x16384x256 : Shape := ⟨3, ![16, 16384, 256]⟩
abbrev S256x256 : Shape := ⟨2, ![256, 256]⟩
abbrev S256 : Shape := ⟨1, ![256]⟩
abbrev S768x256 : Shape := ⟨2, ![768, 256]⟩
abbrev S768 : Shape := ⟨1, ![768]⟩
abbrev S16384x256 : Shape := ⟨2, ![16384, 256]⟩
abbrev S16x256x256 : Shape := ⟨3, ![16, 256, 256]⟩
abbrev S4096x256 : Shape := ⟨2, ![4096, 256]⟩
abbrev S1x1x256 : Shape := ⟨3, ![1, 1, 256]⟩
abbrev S256x768 : Shape := ⟨2, ![256, 768]⟩
abbrev S1x768 : Shape := ⟨2, ![1, 768]⟩

abbrev nBuf : Space → Nat
  | .hbm => 8
  | .vmem => 12
  | .smem => 0
  | _ => 0

abbrev bufTy : (tb : Table) → Fin (tcTables nBuf tb) → BufTy
  | .hbm, ⟨0, _⟩ => ⟨S16x16384x256, .f32⟩
  | .hbm, ⟨1, _⟩ => ⟨S16x16384x256, .f32⟩
  | .hbm, ⟨2, _⟩ => ⟨S256x256, .f32⟩
  | .hbm, ⟨3, _⟩ => ⟨S256, .f32⟩
  | .hbm, ⟨4, _⟩ => ⟨S768x256, .f32⟩
  | .hbm, ⟨5, _⟩ => ⟨S768, .f32⟩
  | .hbm, ⟨6, _⟩ => ⟨S16384x256, .f32⟩
  | .hbm, ⟨7, _⟩ => ⟨S16384x256, .f32⟩
  | .local _ .vmem, ⟨0, _⟩ => ⟨S16x256x256, .f32⟩
  | .local _ .vmem, ⟨1, _⟩ => ⟨S16x256x256, .f32⟩
  | .local _ .vmem, ⟨2, _⟩ => ⟨S16x256x256, .f32⟩
  | .local _ .vmem, ⟨3, _⟩ => ⟨S16x256x256, .f32⟩
  | .local _ .vmem, ⟨4, _⟩ => ⟨S256x256, .f32⟩
  | .local _ .vmem, ⟨5, _⟩ => ⟨S256, .f32⟩
  | .local _ .vmem, ⟨6, _⟩ => ⟨S768x256, .f32⟩
  | .local _ .vmem, ⟨7, _⟩ => ⟨S768, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | _, _ => ⟨S16x16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S16x256x256_S16x256x256_0_0_0 : ∀ a, (![0, 0, 0] : Fin 3 → Nat) a + S16x256x256.size a ≤ S16x256x256.size a
  h_S16x256x256 : 0 < S16x256x256.numel
  reduces_S16x256x256_S256x256 : S16x256x256.Reduces [0] S256x256
  shapeCasts_S16x256x256_S4096x256 : S16x256x256.ShapeCasts S4096x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  shapeCasts_S4096x256_S16x256x256 : S4096x256.ShapeCasts S16x256x256
  inb_S256_S256_0 : ∀ a, (![0] : Fin 1 → Nat) a + S256.size a ≤ S256.size a
  h_S256 : 0 < S256.numel
  shapeCasts_S256_S1x1x256 : S256.ShapeCasts S1x1x256
  broadcasts_S1x1x256_S16x256x256 : S1x1x256.Broadcasts S16x256x256
  inb_S768x256_S768x256_0_0 : ∀ a, (![0, 0] : Fin 2 → Nat) a + S768x256.size a ≤ S768x256.size a
  h_S768x256 : 0 < S768x256.numel
  transposes_S768x256_p1_0_S256x768 : S768x256.Transposes [1, 0] S256x768
  inb_S768_S768_0 : ∀ a, (![0] : Fin 1 → Nat) a + S768.size a ≤ S768.size a
  h_S768 : 0 < S768.numel
  shapeCasts_S768_S1x768 : S768.ShapeCasts S1x768
  broadcasts_S1x768_S256x768 : S1x768.Broadcasts S256x768
  slices_S256x768_o0_0_S256x256 : S256x768.Slices ![0, 0] S256x256
  slices_S256x768_o0_256_S256x256 : S256x768.Slices ![0, 256] S256x256
  slices_S256x768_o0_512_S256x256 : S256x768.Slices ![0, 512] S256x256
  dot_S4096x256_S256x256_S4096x256_1_0_0_1_n_n_wf : DotDims.WF S4096x256 S256x256 S4096x256 [1] [0] [0] [1] [] []
  dot_S256x256_S256x768_S256x768_1_0_0_1_n_n_wf : DotDims.WF S256x256 S256x768 S256x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x256.size a ≤ S16x16384x256.size a
  hwx0_0 : ∀ i : grid0.Coords, EltTy.bits .f32 = 32 ∨ (Rect.block (s := S16x16384x256) S16x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256x256.size a ≤ S16x16384x256.size a
  hwx0_1 : ∀ i : grid0.Coords, EltTy.bits .f32 = 32 ∨ (Rect.block (s := S16x16384x256) S16x256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x256.size a ≤ S768x256.size a
  hwx0_4 : ∀ i : grid0.Coords, EltTy.bits .f32 = 32 ∨ (Rect.block (s := S768x256) S768x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768.size a ≤ S768.size a
  hwx0_5 : ∀ i : grid0.Coords, EltTy.bits .f32 = 32 ∨ (Rect.block (s := S768) S768.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S16384x256.size a
  hwx0_6 : ∀ i : grid0.Coords, EltTy.bits .f32 = 32 ∨ (Rect.block (s := S16384x256) S256x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S16384x256.size a
  hwx0_7 : ∀ i : grid0.Coords, EltTy.bits .f32 = 32 ∨ (Rect.block (s := S16384x256) S256x256.size (cc0_transform_7 i) (hinb0_7 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S256x256_S256x768_S256x768_1_0_0_1_n_n : DotDims S256x256 S256x768 S256x768 where
  lhsContracting := [1]
  rhsContracting := [0]
  lhsNonContracting := [0]
  rhsNonContracting := [1]
  lhsBatch := []
  rhsBatch := []
  wf := dot_S256x256_S256x768_S256x768_1_0_0_1_n_n_wf

abbrev win0_0 : Pipeline.Window sig grid0 :=
  Pipeline.Window.ofSpec (Memref.whole main_arg1) S16x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S16x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S768x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S256x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S256x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x16384x256 : Shape := ⟨3, ![16, 16384, 256]⟩
abbrev S256x256 : Shape := ⟨2, ![256, 256]⟩
abbrev S256 : Shape := ⟨1, ![256]⟩
abbrev S768x256 : Shape := ⟨2, ![768, 256]⟩
abbrev S768 : Shape := ⟨1, ![768]⟩
abbrev S_ : Shape := ⟨0, ![]⟩
abbrev S16384x256 : Shape := ⟨2, ![16384, 256]⟩
abbrev S1x1x256 : Shape := ⟨3, ![1, 1, 256]⟩
abbrev S16384x768 : Shape := ⟨2, ![16384, 768]⟩
abbrev S1x768 : Shape := ⟨2, ![1, 768]⟩

abbrev nBuf : Space → Nat
  | .hbm => 51
  | .vmem => 0
  | .smem => 0
  | _ => 0

abbrev bufTy : (tb : Table) → Fin (tcTables nBuf tb) → BufTy
  | .hbm, ⟨0, _⟩ => ⟨S16x16384x256, .f32⟩
  | .hbm, ⟨1, _⟩ => ⟨S16x16384x256, .f32⟩
  | .hbm, ⟨2, _⟩ => ⟨S256x256, .f32⟩
  | .hbm, ⟨3, _⟩ => ⟨S256, .f32⟩
  | .hbm, ⟨4, _⟩ => ⟨S768x256, .f32⟩
  | .hbm, ⟨5, _⟩ => ⟨S768, .f32⟩
  | .hbm, ⟨6, _⟩ => ⟨S_, .f32⟩
  | .hbm, ⟨7, _⟩ => ⟨S16384x256, .f32⟩
  | .hbm, ⟨8, _⟩ => ⟨S16x16384x256, .f32⟩
  | .hbm, ⟨9, _⟩ => ⟨S1x1x256, .f32⟩
  | .hbm, ⟨10, _⟩ => ⟨S16x16384x256, .f32⟩
  | .hbm, ⟨11, _⟩ => ⟨S16x16384x256, .f32⟩
  | .hbm, ⟨12, _⟩ => ⟨S16x16384x256, .f32⟩
  | .hbm, ⟨13, _⟩ => ⟨S16x16384x256, .f32⟩
  | .hbm, ⟨14, _⟩ => ⟨S_, .f32⟩
  | .hbm, ⟨15, _⟩ => ⟨S16x16384x256, .f32⟩
  | .hbm, ⟨16, _⟩ => ⟨S16x16384x256, .f32⟩
  | .hbm, ⟨17, _⟩ => ⟨S_, .f32⟩
  | .hbm, ⟨18, _⟩ => ⟨S16x16384x256, .f32⟩
  | .hbm, ⟨19, _⟩ => ⟨S16x16384x256, .f32⟩
  | .hbm, ⟨20, _⟩ => ⟨S16384x768, .f32⟩
  | .hbm, ⟨21, _⟩ => ⟨S1x768, .f32⟩
  | .hbm, ⟨22, _⟩ => ⟨S16384x768, .f32⟩
  | .hbm, ⟨23, _⟩ => ⟨S16384x768, .f32⟩
  | .hbm, ⟨24, _⟩ => ⟨S16384x256, .f32⟩
  | .hbm, ⟨25, _⟩ => ⟨S16384x256, .f32⟩
  | .hbm, ⟨26, _⟩ => ⟨S16384x256, .f32⟩
  | .hbm, ⟨27, _⟩ => ⟨S_, .f32⟩
  | .hbm, ⟨28, _⟩ => ⟨S16384x256, .f32⟩
  | .hbm, ⟨29, _⟩ => ⟨S16384x256, .f32⟩
  | .hbm, ⟨30, _⟩ => ⟨S_, .f32⟩
  | .hbm, ⟨31, _⟩ => ⟨S16384x256, .f32⟩
  | .hbm, ⟨32, _⟩ => ⟨S16384x256, .f32⟩
  | .hbm, ⟨33, _⟩ => ⟨S16384x256, .f32⟩
  | .hbm, ⟨34, _⟩ => ⟨S16384x256, .f32⟩
  | .hbm, ⟨35, _⟩ => ⟨S16384x256, .f32⟩
  | .hbm, ⟨36, _⟩ => ⟨S_, .f32⟩
  | .hbm, ⟨37, _⟩ => ⟨S16384x256, .f32⟩
  | .hbm, ⟨38, _⟩ => ⟨S16384x256, .f32⟩
  | .hbm, ⟨39, _⟩ => ⟨S_, .f32⟩
  | .hbm, ⟨40, _⟩ => ⟨S16384x256, .f32⟩
  | .hbm, ⟨41, _⟩ => ⟨S16384x256, .f32⟩
  | .hbm, ⟨42, _⟩ => ⟨S16384x256, .f32⟩
  | .hbm, ⟨43, _⟩ => ⟨S16384x256, .f32⟩
  | .hbm, ⟨44, _⟩ => ⟨S16384x256, .f32⟩
  | .hbm, ⟨45, _⟩ => ⟨S16x16384x256, .f32⟩
  | .hbm, ⟨46, _⟩ => ⟨S_, .f32⟩
  | .hbm, ⟨47, _⟩ => ⟨S16384x256, .f32⟩
  | .hbm, ⟨48, _⟩ => ⟨S16384x256, .f32⟩
  | .hbm, ⟨49, _⟩ => ⟨S16384x256, .f32⟩
  | .hbm, ⟨50, _⟩ => ⟨S16384x256, .f32⟩
  | _, _ => ⟨S16x16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]

class Facts₀ : Prop where
  reducesTo_S16x16384x256_S16384x256_d0 : S16x16384x256.ReducesTo [0] S16384x256
  h_S_ : 0 < S_.numel
  bcast_S256_S1x1x256_2 : S256.BroadcastsInDim S1x1x256 (![2] : Fin 1 → Fin S1x1x256.rank)
  bcast_S1x1x256_S16x16384x256_0_1_2 : S1x1x256.BroadcastsInDim S16x16384x256 (![0, 1, 2] : Fin 3 → Fin S16x16384x256.rank)
  bcast_S_S16x16384x256 : S_.BroadcastsInDim S16x16384x256 (![] : Fin 0 → Fin S16x16384x256.rank)
  bcast_S768_S1x768_1 : S768.BroadcastsInDim S1x768 (![1] : Fin 1 → Fin S1x768.rank)
  bcast_S1x768_S16384x768_0_1 : S1x768.BroadcastsInDim S16384x768 (![0, 1] : Fin 2 → Fin S16384x768.rank)
  slices_S16384x768_S16384x256_0_0 : S16384x768.Slices ![0, 0] S16384x256
  bcast_S_S16384x256 : S_.BroadcastsInDim S16384x256 (![] : Fin 0 → Fin S16384x256.rank)
  slices_S16384x768_S16384x256_0_256 : S16384x768.Slices ![0, 256] S16384x256
  slices_S16384x768_S16384x256_0_512 : S16384x768.Slices ![0, 512] S16384x256
  dot_S16x16384x256_S256x256_S16x16384x256_2_1_01_0_n_n_wf : DotDims.WF S16x16384x256 S256x256 S16x16384x256 [2] [1] [0, 1] [0] [] []
  dot_S16384x256_S768x256_S16384x768_1_1_0_0_n_n_wf : DotDims.WF S16384x256 S768x256 S16384x768 [1] [1] [0] [0] [] []

variable [Facts₀]

def dot_S16x16384x256_S256x256_S16x16384x256_2_1_01_0_n_n : DotDims S16x16384x256 S256x256 S16x16384x256 where
  lhsContracting := [2]
  rhsContracting := [1]
  lhsNonContracting := [0, 1]
  rhsNonContracting := [0]
  lhsBatch := []
  rhsBatch := []
  wf := dot_S16x16384x256_S256x256_S16x16384x256_2_1_01_0_n_n_wf
def dot_S16384x256_S768x256_S16384x768_1_1_0_0_n_n : DotDims S16384x256 S768x256 S16384x768 where
  lhsContracting := [1]
  rhsContracting := [1]
  lhsNonContracting := [0]
  rhsNonContracting := [0]
  lhsBatch := []
  rhsBatch := []
  wf := dot_S16384x256_S768x256_S16384x768_1_1_0_0_n_n_wf

class Facts : Prop extends Facts₀ where

variable [Facts]
-- ==== Proof.CellSpec.lean ====
/-
  The child-sum tree-LSTM cell on the extended reals, one batch row at a time.

  A node has `C` children; child `c` carries a hidden state `h c` and a memory `m c`, both of width `D`.
  The node's summed hidden state is `hs d = ∑ c, h c d`.  A gate table `W` (`J` rows of width `D`) with bias `b`
  gives the gate pre-activations `g j = (∑ d, hs d · W j d) + b j`; three maps `gi go gu : Fin D → Fin J` say which
  rows are the input, output and update gates of lane `e`.  Each child has its own forget gate
  `f c e = σ((∑ d, h c d · Wf e d) + bf e)` with `σ z = 1 / (1 + e^(-z))`.  Then

      nodeMemory e = σ(g (gi e)) · tanh(g (gu e)) + ∑ c, f c e · m c e
      nodeHidden e = σ(g (go e)) · tanh(nodeMemory e)

  Every sum is a finite sum in the additive commutative monoid of the extended reals, so its order and grouping are
  immaterial; no step distributes a product over a sum.  The array form reads row `r` of the batch out of the two
  `[C, B, D]` arrays and the weights out of their tables.
-/
import Idealize.ShloMosaic.PureOps.Ideal
import Idealize.ShloMosaic.Lib.ValueIdx

noncomputable section

open scoped BigOperators

namespace Cert.ChildSumCell

open Idealize.ShloMosaic Idealize.ShloMosaic.ValueIdx

variable {C D J : ℕ}

/-- The children's hidden states summed, lane by lane. -/
def hiddenSum (h : Fin C → Fin D → EReal) (d : Fin D) : EReal := ∑ c : Fin C, h c d

/-- Gate pre-activation `j`: row `j` of the gate table against the summed hidden state, plus its bias. -/
def gate (h : Fin C → Fin D → EReal) (W : Fin J → Fin D → EReal) (b : Fin J → EReal) (j : Fin J) : EReal :=
  (∑ d : Fin D, hiddenSum h d * W j d) + b j

/-- Child `c`'s forget gate at lane `e`. -/
def forget (h : Fin C → Fin D → EReal) (Wf : Fin D → Fin D → EReal) (bf : Fin D → EReal) (c : Fin C) (e : Fin D) : EReal :=
  Ideal.logistic ((∑ d : Fin D, h c d * Wf e d) + bf e)

/-- The node's memory at lane `e`. -/
def nodeMemory (h m : Fin C → Fin D → EReal) (Wf : Fin D → Fin D → EReal) (bf : Fin D → EReal)
    (W : Fin J → Fin D → EReal) (b : Fin J → EReal) (gi gu : Fin D → Fin J) (e : Fin D) : EReal :=
  Ideal.logistic (gate h W b (gi e)) * Ideal.tanh (gate h W b (gu e)) + ∑ c : Fin C, forget h Wf bf c e * m c e

/-- The node's hidden state at lane `e`. -/
def nodeHidden (h m : Fin C → Fin D → EReal) (Wf : Fin D → Fin D → EReal) (bf : Fin D → EReal)
    (W : Fin J → Fin D → EReal) (b : Fin J → EReal) (gi go gu : Fin D → Fin J) (e : Fin D) : EReal :=
  Ideal.logistic (gate h W b (go e)) * Ideal.tanh (nodeMemory h m Wf bf W b gi gu e)

/-! ## The three gates of a table of `3·256` rows, and the cell over whole arrays -/

/-- Lane `e`'s input gate is row `e`. -/
def rowI (e : Fin 256) : Fin 768 := ⟨e.val, by have := e.isLt; omega⟩
/-- Lane `e`'s output gate is row `256 + e`. -/
def rowO (e : Fin 256) : Fin 768 := ⟨e.val + 256, by have := e.isLt; omega⟩
/-- Lane `e`'s update gate is row `512 + e`. -/
def rowU (e : Fin 256) : Fin 768 := ⟨e.val + 512, by have := e.isLt; omega⟩

variable {B : ℕ}

/-- Row `r` of a `[C, B, 256]` array, as a family over the children. -/
abbrev rowOf (x : (⟨3, ![C, B, 256]⟩ : Shape).Idx → EReal) (r : Fin B) : Fin C → Fin 256 → EReal := fun c d => x (ix3 c r d)
/-- A rank-2 table as a function of its two coordinates. -/
abbrev tab {a b : ℕ} (x : (⟨2, ![a, b]⟩ : Shape).Idx → EReal) : Fin a → Fin b → EReal := fun i j => x (ix2 i j)
/-- A vector as a function of its coordinate. -/
abbrev vec {a : ℕ} (x : (⟨1, ![a]⟩ : Shape).Idx → EReal) : Fin a → EReal := fun i => x (ix1 i)

/-- The node memories of a batch: entry `(r, e)` is the cell's memory of row `r` at lane `e`. -/
def memoryArr (cm ch : (⟨3, ![C, B, 256]⟩ : Shape).Idx → EReal) (Wf : (⟨2, ![256, 256]⟩ : Shape).Idx → EReal)
    (bf : (⟨1, ![256]⟩ : Shape).Idx → EReal) (W : (⟨2, ![768, 256]⟩ : Shape).Idx → EReal)
    (b : (⟨1, ![768]⟩ : Shape).Idx → EReal) : (⟨2, ![B, 256]⟩ : Shape).Idx → EReal :=
  fun i => nodeMemory (rowOf ch (i 0 : Fin B)) (rowOf cm (i 0 : Fin B)) (tab Wf) (vec bf) (tab W) (vec b) rowI rowU (i 1 : Fin 256)

/-- The node hidden states of a batch. -/
def hiddenArr (cm ch : (⟨3, ![C, B, 256]⟩ : Shape).Idx → EReal) (Wf : (⟨2, ![256, 256]⟩ : Shape).Idx → EReal)
    (bf : (⟨1, ![256]⟩ : Shape).Idx → EReal) (W : (⟨2, ![768, 256]⟩ : Shape).Idx → EReal)
    (b : (⟨1, ![768]⟩ : Shape).Idx → EReal) : (⟨2, ![B, 256]⟩ : Shape).Idx → EReal :=
  fun i => nodeHidden (rowOf ch (i 0 : Fin B)) (rowOf cm (i 0 : Fin B)) (tab Wf) (vec bf) (tab W) (vec b) rowI rowO rowU (i 1 : Fin 256)

theorem memoryArr_apply (cm ch : (⟨3, ![C, B, 256]⟩ : Shape).Idx → EReal) (Wf : (⟨2, ![256, 256]⟩ : Shape).Idx → EReal)
    (bf : (⟨1, ![256]⟩ : Shape).Idx → EReal) (W : (⟨2, ![768, 256]⟩ : Shape).Idx → EReal)
    (b : (⟨1, ![768]⟩ : Shape).Idx → EReal) (r : Fin B) (e : Fin 256) :
    memoryArr cm ch Wf bf W b (ix2 r e)
      = nodeMemory (rowOf ch r) (rowOf cm r) (tab Wf) (vec bf) (tab W) (vec b) rowI rowU e := rfl

theorem hiddenArr_apply (cm ch : (⟨3, ![C, B, 256]⟩ : Shape).Idx → EReal) (Wf : (⟨2, ![256, 256]⟩ : Shape).Idx → EReal)
    (bf : (⟨1, ![256]⟩ : Shape).Idx → EReal) (W : (⟨2, ![768, 256]⟩ : Shape).Idx → EReal)
    (b : (⟨1, ![768]⟩ : Shape).Idx → EReal) (r : Fin B) (e : Fin 256) :
    hiddenArr cm ch Wf bf W b (ix2 r e)
      = nodeHidden (rowOf ch r) (rowOf cm r) (tab Wf) (vec bf) (tab W) (vec b) rowI rowO rowU e := rfl

end Cert.ChildSumCell

end
-- ==== Proof.LibPlainMatmul.lean ====
/-
  A plain matrix product read at one entry, over the extended reals.

  For the dimension numbers of an `M × K` by `K × N` product (`DotDims.plain M K N`: the left operand
  contracted on its second axis, the right one on its first, no batch axis) the entry `(p, q)` of the
  product is `∑ k, lhs (p, k) * rhs (k, q)`: for a kernel's matrix-unit product accumulated into the zero
  splat, and for the host's `dot_general`. The contraction index of such a product has one coordinate, and
  the operands' indices at output `(p, q)` and contraction coordinate `k` are `(p, k)` and `(k, q)`.
-/
import Idealize.ShloMosaic.Lib.ValueIdx
import Idealize.ShloMosaic.PureOps.Ideal.Laws

noncomputable section

open scoped BigOperators

namespace Cert.PlainMatmul

open Idealize.ShloMosaic Idealize.ShloMosaic.ValueIdx

variable {M K N : Nat}

/-- The contraction of a plain product runs over one axis … -/
theorem contr_rank : (DotDims.plain M K N).contr.rank = 1 := rfl

/-- … of extent `K`. -/
theorem contr_size : (DotDims.plain M K N).contr.size ⟨0, Nat.one_pos⟩ = K := rfl

/-- The contraction index whose one coordinate is `k`. -/
abbrev kidx (k : Fin K) : (DotDims.plain M K N).contr.Idx :=
  (contrEquiv1 (DotDims.plain M K N) K contr_rank contr_size).symm k

/-- At output `(p, q)` and contraction coordinate `k` the left operand is read at `(p, k)`. -/
theorem lhsIdx_eq (p : Fin M) (q : Fin N) (k : Fin K) :
    (DotDims.plain M K N).lhsIdx (ix2 p q) (kidx k) = ix2 p k := by
  funext a
  refine Fin.ext ?_
  match a with
  | ⟨0, h0⟩ =>
    unfold DotDims.lhsIdx
    rw [dif_neg (show ¬(⟨0, h0⟩ : Fin (⟨2, ![M, K]⟩ : Shape).rank) ∈ (DotDims.plain M K N).lhsBatch from List.not_mem_nil),
      dif_pos (show (⟨0, h0⟩ : Fin (⟨2, ![M, K]⟩ : Shape).rank) ∈ (DotDims.plain M K N).lhsNonContracting from
        List.mem_singleton.mpr rfl)]
    rfl
  | ⟨1, _⟩ =>
    exact ((DotDims.plain M K N).lhsIdx_val_of_single (cl := 1) rfl (ix2 p q) (kidx k)).trans
      (contrEquiv1_symm_val (DotDims.plain M K N) K contr_rank contr_size k)

/-- At output `(p, q)` and contraction coordinate `k` the right operand is read at `(k, q)`. -/
theorem rhsIdx_eq (p : Fin M) (q : Fin N) (k : Fin K) :
    (DotDims.plain M K N).rhsIdx (ix2 p q) (kidx k) = ix2 k q := by
  funext a
  refine Fin.ext ?_
  match a with
  | ⟨0, _⟩ =>
    exact ((DotDims.plain M K N).rhsIdx_val_of_single (cr := 0) rfl (ix2 p q) (kidx k)).trans
      (contrEquiv1_symm_val (DotDims.plain M K N) K contr_rank contr_size k)
  | ⟨1, h1⟩ =>
    unfold DotDims.rhsIdx
    rw [dif_neg (show ¬(⟨1, h1⟩ : Fin (⟨2, ![K, N]⟩ : Shape).rank) ∈ (DotDims.plain M K N).rhsBatch from List.not_mem_nil),
      dif_pos (show (⟨1, h1⟩ : Fin (⟨2, ![K, N]⟩ : Shape).rank) ∈ (DotDims.plain M K N).rhsNonContracting from
        List.mem_singleton.mpr rfl)]
    rfl

/-- The sum over the contraction index of a plain product is the sum over its one coordinate. -/
theorem sum_contr (f : (⟨2, ![M, K]⟩ : Shape).Idx → (⟨2, ![K, N]⟩ : Shape).Idx → EReal) (p : Fin M) (q : Fin N) :
    ∑ κ : (DotDims.plain M K N).contr.Idx, f ((DotDims.plain M K N).lhsIdx (ix2 p q) κ) ((DotDims.plain M K N).rhsIdx (ix2 p q) κ)
      = ∑ k : Fin K, f (ix2 p k) (ix2 k q) := by
  rw [← Equiv.sum_comp (contrEquiv1 (DotDims.plain M K N) K contr_rank contr_size).symm]
  refine Finset.sum_congr rfl fun k _ => ?_
  rw [lhsIdx_eq p q k, rhsIdx_eq p q k]

/-- A KERNEL'S PRODUCT into the zero accumulator, at entry `(p, q)`: the sum over `k` of `lhs (p, k) * rhs (k, q)`,
    whatever the operands' formats (a change of format is the identity on the extended reals). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (DotDims.plain M K N) prec lhs rhs (constant (F := Ideal) ⟨2, ![M, N]⟩ .f32 0x00000000#32) (ix2 p q)
      = ∑ k : Fin K, lhs (ix2 p k) * rhs (ix2 k q) := by
  show FloatOps.matmul (DotDims.plain M K N) prec lhs rhs (constant (F := Ideal) ⟨2, ![M, N]⟩ .f32 0x00000000#32) (ix2 p q) = _
  rw [Ideal.matmul_constant_zero_apply]
  exact sum_contr (fun a b => lhs a * rhs b) p q

/-- THE HOST'S `dot_general` with the same dimension numbers, at entry `(p, q)`: the same sum. -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (DotDims.plain M K N) prec lhs rhs (ix2 p q) = ∑ k : Fin K, lhs (ix2 p k) * rhs (ix2 k q) := by
  show FloatOps.dotGeneral (DotDims.plain M K N) prec .single lhs rhs (ix2 p q) = _
  rw [Ideal.dotGeneral_apply]
  exact sum_contr (fun a b => lhs a * rhs b) p q

end Cert.PlainMatmul

end
-- ==== Proof.LibMergeRows.lean ====
/-
  The leading two axes of a rank-3 array merged into one, and split again, read at an index.

  An `[n, a, b]` array and an `[n·a, b]` matrix hold the same elements in row-major order: row `p·a + i` of the
  matrix is the slab entry `(p, i, ·)`.  Both directions of the cast are stated with the merged row number `P` given
  as a variable together with the equation `P = p·a + i`, so that a caller can supply whatever spelling of the row
  number its own arithmetic produces.
-/
import Idealize.ShloMosaic.Lib.Pipeline.Value
import Idealize.ShloMosaic.Lib.ValueIdx

noncomputable section

namespace Cert.MergeRows

open Idealize.ShloMosaic Idealize.ShloMosaic.ValueIdx

variable {α : Type}

/-- `[n, a, b]` cast to `[N, b]`: entry `(P, j)` with `P = p·a + i` is the operand's entry `(p, i, j)`. -/
theorem shapeCast_merge_apply {n a b N : ℕ} (x : (⟨3, ![n, a, b]⟩ : Shape).Idx → α)
    (h : (⟨3, ![n, a, b]⟩ : Shape).ShapeCasts ⟨2, ![N, b]⟩) (p : Fin n) (i : Fin a) (j : Fin b) (P : Fin N)
    (hP : P.val = p.val * a + i.val) : shapeCast ⟨2, ![N, b]⟩ x h (ix2 P j) = x (ix3 p i j) :=
  shapeCast_apply x h _ _ (by
    rw [Shape.rowMajor_val_three, Shape.rowMajor_val_two]
    show (p.val * a + i.val) * b + j.val = P.val * b + j.val
    rw [hP])

/-- `[N, b]` cast to `[n, a, b]`: entry `(p, i, j)` is the operand's entry `(P, j)` with `P = p·a + i`. -/
theorem shapeCast_split_apply {n a b N : ℕ} (x : (⟨2, ![N, b]⟩ : Shape).Idx → α)
    (h : (⟨2, ![N, b]⟩ : Shape).ShapeCasts ⟨3, ![n, a, b]⟩) (p : Fin n) (i : Fin a) (j : Fin b) (P : Fin N)
    (hP : P.val = p.val * a + i.val) : shapeCast ⟨3, ![n, a, b]⟩ x h (ix3 p i j) = x (ix2 P j) :=
  shapeCast_apply x h _ _ (by
    rw [Shape.rowMajor_val_two, Shape.rowMajor_val_three]
    show P.val * b + j.val = (p.val * a + i.val) * b + j.val
    rw [hP])

end Cert.MergeRows

end
-- ==== Proof.KernelCell.lean ====
/-
  The kernel body's two stored values, read at one entry of the block.

  The body holds a block of `256` batch rows: the children's hidden states and memories as `[16, 256, 256]`
  (child, row, lane), and the whole weight tables.  Entry `(p, e)` of what it stores into the first output block is
  the cell's memory of row `p` at lane `e`, and into the second the cell's hidden state (CellSpec.lean).  The steps:

  * the sum over the child axis at `(p, d)` is `∑ c, h (c, p, d)`;
  * the gate product: a `[256, 256]` by `[256, 768]` matrix product whose right factor is the gate table
    transposed, so entry `(p, j)` is `∑ d, hs (p, d) · W (j, d)`; the bias row is added to every row;
  * the forget product: the block's `16 · 256` (child, row) pairs taken as the rows of one `[4096, 256]` matrix
    (row `c · 256 + p`), multiplied by the forget table transposed, and folded back to `[16, 256, 256]`;
  * the three gate slices of the `768` gate columns start at columns `0`, `256` and `512`.

  A narrowing of the float format is the identity on the extended reals.
-/
import proofs.«155802_j33990371180854_1_alg».proof.Proof.Gen.KernelIdeal.Skeleton
import proofs.«155802_j33990371180854_1_alg».proof.Proof.CellSpec
import proofs.«155802_j33990371180854_1_alg».proof.Proof.LibPlainMatmul
import proofs.«155802_j33990371180854_1_alg».proof.Proof.LibMergeRows
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.CellValue

open Cert.KernelIdeal Cert.KernelIdeal.Gen Idealize.ShloMosaic Idealize.ShloMosaic.ValueIdx Cert.ChildSumCell

/-! ## Layout steps at an entry -/

/-- The sum over the child axis of a `[16, 256, 256]` block, at `(p, k)`. -/
theorem childSum_apply (x : FVec Ideal S16x256x256 .f32) (hφ : FKind.Formats .f32)
    (hacc : (0x00000000#32 : BitVec FTy.f32.bits) = FKind.add.neutral .f32 hφ) (p k : Fin 256) :
    multiReduction (F := Ideal) .add [0] S256x256 x 0x00000000#32 reduces_S16x256x256_S256x256 hφ hacc (ix2 p k)
      = ∑ c : Fin 16, x (ix3 c p k) :=
  (Ideal.multiReduction_add_single x 0x00000000#32 reduces_S16x256x256_S256x256 hφ hacc (ix2 p k)).trans
    (Finset.sum_congr rfl fun c _ => congrArg x (funext fun a => Fin.ext (by
      match a with
      | ⟨0, _⟩ => rfl
      | ⟨1, _⟩ => rfl
      | ⟨2, _⟩ => rfl)))

/-- A vector `[a]` laid out as `[1, 1, a]` and broadcast over `[n, m, a]`: entry `(c, p, e)` is entry `e`. -/
theorem lane3_apply {n m a : ℕ} {α : Type} (x : (⟨1, ![a]⟩ : Shape).Idx → α)
    (hc : (⟨1, ![a]⟩ : Shape).ShapeCasts ⟨3, ![1, 1, a]⟩) (hb : (⟨3, ![1, 1, a]⟩ : Shape).Broadcasts ⟨3, ![n, m, a]⟩)
    (c : Fin n) (p : Fin m) (e : Fin a) :
    broadcastTo ⟨3, ![n, m, a]⟩ (shapeCast ⟨3, ![1, 1, a]⟩ x hc) hb (ix3 c p e) = x (ix1 e) := by
  refine (broadcastTo_apply _ hb (ix3 c p e) (ix3 (0 : Fin 1) (0 : Fin 1) e) fun ax => ?_).trans ?_
  · match ax with
    | ⟨0, _⟩ => rfl
    | ⟨1, _⟩ => rfl
    | ⟨2, _⟩ =>
      show e.val = if a = 1 then 0 else e.val
      split
      · have := e.isLt; omega
      · rfl
  · refine shapeCast_apply x hc _ _ ?_
    rw [Shape.rowMajor_val_one, Shape.rowMajor_val_three]
    show e.val = (0 * 1 + 0) * a + e.val
    omega

/-- A vector `[b]` laid out as one row `[1, b]` and broadcast down `[a, b]`: entry `(p, j)` is entry `j`. -/
theorem lane2_apply {a b : ℕ} {α : Type} (x : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (j : Fin b) :
    broadcastTo ⟨2, ![a, b]⟩ (shapeCast ⟨2, ![1, b]⟩ x hc) hb (ix2 p j) = x (ix1 j) :=
  (broadcastTo_1b_ab_apply _ hb p j).trans (shapeCast_a_1a_apply x hc 0 j)

/-! ## The body's values at an entry -/

variable (x0 x1 : FVec Ideal S16x256x256 .f32) (x2 : FVec Ideal S256x256 .f32) (x3 : FVec Ideal S256 .f32)
  (x4 : FVec Ideal S768x256 .f32) (x5 : FVec Ideal S768 .f32)

/-- The gate pre-activations of block row `p`: column `j` of the `[256, 768]` value is gate row `j` against the
    row's summed hidden state, plus the bias. -/
theorem gate_apply (p : Fin 256) (j : Fin 768) :
    k0_pay1 (F := Ideal) x0 x4 x5 (ix2 p j) = gate (rowOf x0 p) (tab x4) (vec x5) j := by
  unfold k0_pay1 gate
  refine congrArg₂ (· + ·) ?_ (lane2_apply x5 shapeCasts_S768_S1x768 broadcasts_S1x768_S256x768 p j)
  refine (Cert.PlainMatmul.matmul_zero_apply none _ _ p j).trans ?_
  refine Finset.sum_congr rfl fun d _ => congrArg₂ (· * ·) ?_ ?_
  · exact childSum_apply x0 (.inl rfl) rfl p d
  · exact transpose_ix2_apply _ transposes_S768x256_p1_0_S256x768 d j

/-- What the body stores into the first output block, at `(p, e)`: the memory of block row `p` at lane `e`. -/
theorem memory_apply (p e : Fin 256) :
    k0_pay2 (F := Ideal) x0 x1 x2 x3 x4 x5 (ix2 p e)
      = nodeMemory (rowOf x0 p) (rowOf x1 p) (tab x2) (vec x3) (tab x4) (vec x5) rowI rowU e := by
  unfold k0_pay2 nodeMemory
  refine congrArg₂ (· + ·) (congrArg₂ (· * ·) (congrArg Ideal.logistic ?_) (congrArg Ideal.tanh ?_)) ?_
  · -- the input gate: the slice of the gate columns from column 0
    exact (slice2_axis1_apply 0 _ slices_S256x768_o0_0_S256x256 p e (rowI e) (by show e.val = 0 + e.val; omega)).trans
      (gate_apply x0 x4 x5 p (rowI e))
  · -- the update gate: the slice from column 512
    exact (slice2_axis1_apply 512 _ slices_S256x768_o0_512_S256x256 p e (rowU e) (by show e.val + 512 = 512 + e.val; omega)).trans
      (gate_apply x0 x4 x5 p (rowU e))
  · -- the children's memories weighted by their forget gates, summed over the child axis
    refine (childSum_apply _ (.inl rfl) rfl p e).trans ?_
    refine Finset.sum_congr rfl fun c _ => congrArg₂ (· * ·) ?_ rfl
    unfold forget
    refine congrArg Ideal.logistic (congrArg₂ (· + ·) ?_
      (lane3_apply x3 shapeCasts_S256_S1x1x256 broadcasts_S1x1x256_S16x256x256 c p e))
    -- (child c, row p) is row c·256 + p of the [4096, 256] matrix the product is taken over
    refine (Cert.MergeRows.shapeCast_split_apply _ shapeCasts_S4096x256_S16x256x256 c p e
      ⟨c.val * 256 + p.val, by have := c.isLt; have := p.isLt; omega⟩ rfl).trans ?_
    refine (Cert.PlainMatmul.matmul_zero_apply none _ _ _ e).trans ?_
    refine Finset.sum_congr rfl fun d _ => congrArg₂ (· * ·) ?_ ?_
    · exact Cert.MergeRows.shapeCast_merge_apply x0 shapeCasts_S16x256x256_S4096x256 c p d _ rfl
    · exact transpose_ix2_apply _ transposes_S256x256_p1_0_S256x256 d e

/-- What the body stores into the second output block, at `(p, e)`: the hidden state of block row `p` at lane `e`. -/
theorem hidden_apply (p e : Fin 256) :
    k0_pay3 (F := Ideal) x0 x1 x2 x3 x4 x5 (ix2 p e)
      = nodeHidden (rowOf x0 p) (rowOf x1 p) (tab x2) (vec x3) (tab x4) (vec x5) rowI rowO rowU e := by
  unfold k0_pay3 nodeHidden
  refine congrArg₂ (· * ·) (congrArg Ideal.logistic ?_) (congrArg Ideal.tanh (memory_apply x0 x1 x2 x3 x4 x5 p e))
  -- the output gate: the slice from column 256
  exact (slice2_axis1_apply 256 _ slices_S256x768_o0_256_S256x256 p e (rowO e) (by show e.val + 256 = 256 + e.val; omega)).trans
    (gate_apply x0 x4 x5 p (rowO e))

end Cert.KernelIdeal.CellValue

end
-- ==== Proof.KernelArray.lean ====
/-
  From the blocks to the arrays: what the kernel's two result arrays hold after the run.

  The grid has `64` points; point `t` holds batch rows `256·t … 256·t + 255` of the two child arrays (all `16`
  children, all lanes), the whole weight tables, and writes rows `256·t … 256·t + 255` of both results.  So block row
  `p` at point `t` is batch row `256·t + p`, the stored block is the block of the batch of node memories
  (resp. hidden states) at those rows (KernelCell.lean, CellSpec.lean), and since the `64` blocks of `256` rows tile
  the `16384` rows, each result array is that batch, as one function of the argument arrays.
-/
import proofs.«155802_j33990371180854_1_alg».proof.Proof.Gen.KernelIdeal.Value
import proofs.«155802_j33990371180854_1_alg».proof.Proof.KernelCell

noncomputable section

namespace Cert.KernelIdeal.CellValue

open Cert.KernelIdeal Cert.KernelIdeal.Gen Idealize.ShloMosaic Idealize.ShloMosaic.TcCoe Idealize.SL.Sem
open Idealize.ShloMosaic.ValueIdx Cert.ChildSumCell
open Idealize.ShloMosaic.Pipeline (Dat)

/-- Entry `y` of the stored block is entry `i` of the batch of node memory when block row `y 0` holds batch row `i 0` of
    both child arrays, the weights are the same tables and the lanes agree. -/
theorem memory_at (X0 X1 : FVec Ideal S16x256x256 .f32) (X2 : FVec Ideal S256x256 .f32) (X3 : FVec Ideal S256 .f32)
    (X4 : FVec Ideal S768x256 .f32) (X5 : FVec Ideal S768 .f32)
    (cm ch : S16x16384x256.Idx → EReal) (Wf : S256x256.Idx → EReal) (bf : S256.Idx → EReal)
    (W : S768x256.Idx → EReal) (b : S768.Idx → EReal) (y : S256x256.Idx) (i : S16384x256.Idx)
    (h0 : ∀ (cc : Fin 16) (d : Fin 256), X0 (ix3 cc (y 0 : Fin 256) d) = ch (ix3 cc (i 0 : Fin 16384) d))
    (h1 : ∀ (cc : Fin 16) (d : Fin 256), X1 (ix3 cc (y 0 : Fin 256) d) = cm (ix3 cc (i 0 : Fin 16384) d))
    (h2 : ∀ a b' : Fin 256, X2 (ix2 a b') = Wf (ix2 a b')) (h3 : ∀ a : Fin 256, X3 (ix1 a) = bf (ix1 a))
    (h4 : ∀ (a : Fin 768) (b' : Fin 256), X4 (ix2 a b') = W (ix2 a b')) (h5 : ∀ a : Fin 768, X5 (ix1 a) = b (ix1 a))
    (he : (y 1).val = (i 1).val) :
    k0_pay2 (F := Ideal) X0 X1 X2 X3 X4 X5 y = memoryArr cm ch Wf bf W b i := by
  obtain ⟨p, e, rfl⟩ : ∃ (p : Fin 256) (e : Fin 256), y = ix2 p e := ⟨y 0, y 1, eq_ix2 y⟩
  obtain ⟨r, e', rfl⟩ : ∃ (r : Fin 16384) (e' : Fin 256), i = ix2 r e' := ⟨i 0, i 1, eq_ix2 i⟩
  have hee : e = e' := Fin.ext he
  subst hee
  rw [memory_apply, memoryArr_apply]
  have e0 : rowOf X0 p = rowOf ch r := funext fun cc => funext fun d => h0 cc d
  have e1 : rowOf X1 p = rowOf cm r := funext fun cc => funext fun d => h1 cc d
  have e2 : tab X2 = tab Wf := funext fun a => funext fun b' => h2 a b'
  have e3 : vec X3 = vec bf := funext fun a => h3 a
  have e4 : tab X4 = tab W := funext fun a => funext fun b' => h4 a b'
  have e5 : vec X5 = vec b := funext fun a => h5 a
  rw [e0, e1, e2, e3, e4, e5]

/-- Entry `y` of the stored block is entry `i` of the batch of node hidden when block row `y 0` holds batch row `i 0` of
    both child arrays, the weights are the same tables and the lanes agree. -/
theorem hidden_at (X0 X1 : FVec Ideal S16x256x256 .f32) (X2 : FVec Ideal S256x256 .f32) (X3 : FVec Ideal S256 .f32)
    (X4 : FVec Ideal S768x256 .f32) (X5 : FVec Ideal S768 .f32)
    (cm ch : S16x16384x256.Idx → EReal) (Wf : S256x256.Idx → EReal) (bf : S256.Idx → EReal)
    (W : S768x256.Idx → EReal) (b : S768.Idx → EReal) (y : S256x256.Idx) (i : S16384x256.Idx)
    (h0 : ∀ (cc : Fin 16) (d : Fin 256), X0 (ix3 cc (y 0 : Fin 256) d) = ch (ix3 cc (i 0 : Fin 16384) d))
    (h1 : ∀ (cc : Fin 16) (d : Fin 256), X1 (ix3 cc (y 0 : Fin 256) d) = cm (ix3 cc (i 0 : Fin 16384) d))
    (h2 : ∀ a b' : Fin 256, X2 (ix2 a b') = Wf (ix2 a b')) (h3 : ∀ a : Fin 256, X3 (ix1 a) = bf (ix1 a))
    (h4 : ∀ (a : Fin 768) (b' : Fin 256), X4 (ix2 a b') = W (ix2 a b')) (h5 : ∀ a : Fin 768, X5 (ix1 a) = b (ix1 a))
    (he : (y 1).val = (i 1).val) :
    k0_pay3 (F := Ideal) X0 X1 X2 X3 X4 X5 y = hiddenArr cm ch Wf bf W b i := by
  obtain ⟨p, e, rfl⟩ : ∃ (p : Fin 256) (e : Fin 256), y = ix2 p e := ⟨y 0, y 1, eq_ix2 y⟩
  obtain ⟨r, e', rfl⟩ : ∃ (r : Fin 16384) (e' : Fin 256), i = ix2 r e' := ⟨i 0, i 1, eq_ix2 i⟩
  have hee : e = e' := Fin.ext he
  subst hee
  rw [hidden_apply, hiddenArr_apply]
  have e0 : rowOf X0 p = rowOf ch r := funext fun cc => funext fun d => h0 cc d
  have e1 : rowOf X1 p = rowOf cm r := funext fun cc => funext fun d => h1 cc d
  have e2 : tab X2 = tab Wf := funext fun a => funext fun b' => h2 a b'
  have e3 : vec X3 = vec bf := funext fun a => h3 a
  have e4 : tab X4 = tab W := funext fun a => funext fun b' => h4 a b'
  have e5 : vec X5 = vec b := funext fun a => h5 a
  rw [e0, e1, e2, e3, e4, e5]

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a <;> rfl

/-- The printed index maps, decided over the grid: the two child windows move along the row axis with the output
    windows and sit at block `0` on their other axes; the four weight windows sit at block `0`; both outputs move along
    the row axis only. -/
theorem idx_facts : ∀ t : Fin cfg0.N,
    win0_0.index t (0 : Fin 3) = 0 ∧ win0_0.index t (1 : Fin 3) = win0_6.index t (0 : Fin 2) ∧ win0_0.index t (2 : Fin 3) = 0
    ∧ win0_1.index t (0 : Fin 3) = 0 ∧ win0_1.index t (1 : Fin 3) = win0_6.index t (0 : Fin 2) ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) ≤ 63 ∧ win0_6.index t (1 : Fin 2) = 0
    ∧ win0_7.index t (0 : Fin 2) = win0_6.index t (0 : Fin 2) ∧ win0_7.index t (1 : Fin 2) = 0 :=
  (by decide +kernel : ∀ t : Fin grid0.N, _)

/-- Every block of `256` rows is some point's, for either output. -/
theorem idx_onto6 : ∀ q : Fin 64, ∃ t : Fin cfg0.N, win0_6.index t = ![q.val, 0] :=
  (by decide +kernel : ∀ q : Fin 64, ∃ t : Fin grid0.N, win0_6.index t = ![q.val, 0])
theorem idx_onto7 : ∀ q : Fin 64, ∃ t : Fin cfg0.N, win0_7.index t = ![q.val, 0] :=
  (by decide +kernel : ∀ q : Fin 64, ∃ t : Fin grid0.N, win0_7.index t = ![q.val, 0])

/-- WHAT POINT `t` WRITES BACK through output window 6 is block `t` of the batch of node memory. -/
theorem flushed6_eq (c : Dev nD) (t : Fin cfg0.N) :
    (dats m 0 c).flushed 6 t = ((cfg0.win 6).blk t).view.read (Elt Ideal) (memoryArr (V m c main_arg0) (V m c main_arg1) (V m c main_arg2) (V m c main_arg3) (V m c main_arg4) (V m c main_arg5)) := by
  rw [Value.flushed6]
  unfold out0_6
  rw [View.canon_unit_zero zero2]
  simp only [View.ld_unit_zero (S := S16x256x256) zero3, View.ld_unit_zero (S := S256x256) zero2,
    View.ld_unit_zero (S := S256) zero1, View.ld_unit_zero (S := S768x256) zero2, View.ld_unit_zero (S := S768) zero1]
  obtain ⟨f00, f01, f02, f10, f11, f12, f20, f21, f30, f40, f41, f50, f60, f61, f70, f71⟩ := idx_facts t
  funext j
  show k0_pay2 (F := Ideal) (iblk m c 0 t) (iblk m c 1 t) (iblk m c 2 t) (iblk m c 3 t) (iblk m c 4 t) (iblk m c 5 t) j
    = memoryArr (V m c main_arg0) (V m c main_arg1) (V m c main_arg2) (V m c main_arg3) (V m c main_arg4) (V m c main_arg5) (((cfg0.win 6).blk t).view.emb j)
  refine memory_at (iblk m c 0 t) (iblk m c 1 t) (iblk m c 2 t) (iblk m c 3 t) (iblk m c 4 t) (iblk m c 5 t)
    (V m c main_arg0) (V m c main_arg1) (V m c main_arg2) (V m c main_arg3) (V m c main_arg4) (V m c main_arg5) j (((cfg0.win 6).blk t).view.emb j) ?_ ?_ ?_ ?_ ?_ ?_ ?_
  · intro cc d
    show V m c main_arg1 (((cfg0.win 0).blk t).view.emb (ix3 cc (j 0) d))
      = V m c main_arg1 (ix3 cc ((((cfg0.win 6).blk t).view.emb j) 0) d)
    refine congrArg (V m c main_arg1) (funext fun a => Fin.ext ?_)
    match a with
    | ⟨0, _⟩ => show win0_0.index t (0 : Fin 3) * 16 + 1 * cc.val = cc.val; omega
    | ⟨1, _⟩ => show win0_0.index t (1 : Fin 3) * 256 + 1 * (j 0).val = win0_6.index t (0 : Fin 2) * 256 + 1 * (j 0).val; omega
    | ⟨2, _⟩ => show win0_0.index t (2 : Fin 3) * 256 + 1 * d.val = d.val; omega
  · intro cc d
    show V m c main_arg0 (((cfg0.win 1).blk t).view.emb (ix3 cc (j 0) d))
      = V m c main_arg0 (ix3 cc ((((cfg0.win 6).blk t).view.emb j) 0) d)
    refine congrArg (V m c main_arg0) (funext fun a => Fin.ext ?_)
    match a with
    | ⟨0, _⟩ => show win0_1.index t (0 : Fin 3) * 16 + 1 * cc.val = cc.val; omega
    | ⟨1, _⟩ => show win0_1.index t (1 : Fin 3) * 256 + 1 * (j 0).val = win0_6.index t (0 : Fin 2) * 256 + 1 * (j 0).val; omega
    | ⟨2, _⟩ => show win0_1.index t (2 : Fin 3) * 256 + 1 * d.val = d.val; omega
  · intro a b
    show V m c main_arg2 (((cfg0.win 2).blk t).view.emb (ix2 a b)) = V m c main_arg2 (ix2 a b)
    refine congrArg (V m c main_arg2) (funext fun ax => Fin.ext ?_)
    match ax with
    | ⟨0, _⟩ => show win0_2.index t (0 : Fin 2) * 256 + 1 * a.val = a.val; omega
    | ⟨1, _⟩ => show win0_2.index t (1 : Fin 2) * 256 + 1 * b.val = b.val; omega
  · intro a
    show V m c main_arg3 (((cfg0.win 3).blk t).view.emb (ix1 a)) = V m c main_arg3 (ix1 a)
    refine congrArg (V m c main_arg3) (funext fun ax => Fin.ext ?_)
    match ax with
    | ⟨0, _⟩ => show win0_3.index t (0 : Fin 1) * 256 + 1 * a.val = a.val; omega
  · intro a b
    show V m c main_arg4 (((cfg0.win 4).blk t).view.emb (ix2 a b)) = V m c main_arg4 (ix2 a b)
    refine congrArg (V m c main_arg4) (funext fun ax => Fin.ext ?_)
    match ax with
    | ⟨0, _⟩ => show win0_4.index t (0 : Fin 2) * 768 + 1 * a.val = a.val; omega
    | ⟨1, _⟩ => show win0_4.index t (1 : Fin 2) * 256 + 1 * b.val = b.val; omega
  · intro a
    show V m c main_arg5 (((cfg0.win 5).blk t).view.emb (ix1 a)) = V m c main_arg5 (ix1 a)
    refine congrArg (V m c main_arg5) (funext fun ax => Fin.ext ?_)
    match ax with
    | ⟨0, _⟩ => show win0_5.index t (0 : Fin 1) * 768 + 1 * a.val = a.val; omega
  · show (j 1).val = win0_6.index t (1 : Fin 2) * 256 + 1 * (j 1).val
    omega

/-- An index of the array is in point `t`'s block iff each coordinate is in the block's range on its axis. -/
theorem mem_blk6 (t : Fin cfg0.N) (i : S16384x256.Idx) :
    i ∈ ((cfg0.win 6).blk t).view.set ↔ ∀ a : Fin 2, win0_6.index t a * S256x256.size a ≤ (i a).val
      ∧ (i a).val < win0_6.index t a * S256x256.size a + S256x256.size a := by
  show i ∈ ((View.whole main_v0_0).slice (win0_6.rect t)).set ↔ _
  rw [View.set_slice_whole, Rect.mem_set_unit]
  exact Iff.rfl

/-- Every index of the array lies in some point's block: row `r` in the block of point `r / 256`. -/
theorem cover6 (i : S16384x256.Idx) :
    ∃ t : Fin cfg0.N, (cfg0.win 6).flush t = true ∧ i ∈ ((cfg0.win 6).blk t).view.set := by
  have hi0 : (i 0).val < 16384 := (i 0).isLt
  have hi1 : (i 1).val < 256 := (i 1).isLt
  obtain ⟨t, ht⟩ := idx_onto6 ⟨(i 0).val / 256, by omega⟩
  have q0 : win0_6.index t (0 : Fin 2) = (i 0).val / 256 := congrFun ht 0
  have q1 : win0_6.index t (1 : Fin 2) = 0 := congrFun ht 1
  refine ⟨t, flush0_6 t, ?_⟩
  rw [mem_blk6]
  intro a
  match a with
  | ⟨0, _⟩ =>
    show win0_6.index t (0 : Fin 2) * 256 ≤ (i 0).val ∧ (i 0).val < win0_6.index t (0 : Fin 2) * 256 + 256
    omega
  | ⟨1, _⟩ =>
    show win0_6.index t (1 : Fin 2) * 256 ≤ (i 1).val ∧ (i 1).val < win0_6.index t (1 : Fin 2) * 256 + 256
    omega

/-- THE ARRAY after the run: the batch of node memory, as one function of the argument arrays. -/
theorem final6 (c : Dev nD) : (dats m 0 c).arrAt 6 cfg0.N
    = memoryArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 6 (memoryArr (V m c main_arg0) (V m c main_arg1) (V m c main_arg2) (V m c main_arg3) (V m c main_arg4) (V m c main_arg5)) (fun t _ => flushed6_eq m c t) cover6

/-- WHAT POINT `t` WRITES BACK through output window 7 is block `t` of the batch of node hidden. -/
theorem flushed7_eq (c : Dev nD) (t : Fin cfg0.N) :
    (dats m 0 c).flushed 7 t = ((cfg0.win 7).blk t).view.read (Elt Ideal) (hiddenArr (V m c main_arg0) (V m c main_arg1) (V m c main_arg2) (V m c main_arg3) (V m c main_arg4) (V m c main_arg5)) := by
  rw [Value.flushed7]
  unfold out0_7
  rw [View.canon_unit_zero zero2]
  simp only [View.ld_unit_zero (S := S16x256x256) zero3, View.ld_unit_zero (S := S256x256) zero2,
    View.ld_unit_zero (S := S256) zero1, View.ld_unit_zero (S := S768x256) zero2, View.ld_unit_zero (S := S768) zero1]
  obtain ⟨f00, f01, f02, f10, f11, f12, f20, f21, f30, f40, f41, f50, f60, f61, f70, f71⟩ := idx_facts t
  funext j
  show k0_pay3 (F := Ideal) (iblk m c 0 t) (iblk m c 1 t) (iblk m c 2 t) (iblk m c 3 t) (iblk m c 4 t) (iblk m c 5 t) j
    = hiddenArr (V m c main_arg0) (V m c main_arg1) (V m c main_arg2) (V m c main_arg3) (V m c main_arg4) (V m c main_arg5) (((cfg0.win 7).blk t).view.emb j)
  refine hidden_at (iblk m c 0 t) (iblk m c 1 t) (iblk m c 2 t) (iblk m c 3 t) (iblk m c 4 t) (iblk m c 5 t)
    (V m c main_arg0) (V m c main_arg1) (V m c main_arg2) (V m c main_arg3) (V m c main_arg4) (V m c main_arg5) j (((cfg0.win 7).blk t).view.emb j) ?_ ?_ ?_ ?_ ?_ ?_ ?_
  · intro cc d
    show V m c main_arg1 (((cfg0.win 0).blk t).view.emb (ix3 cc (j 0) d))
      = V m c main_arg1 (ix3 cc ((((cfg0.win 7).blk t).view.emb j) 0) d)
    refine congrArg (V m c main_arg1) (funext fun a => Fin.ext ?_)
    match a with
    | ⟨0, _⟩ => show win0_0.index t (0 : Fin 3) * 16 + 1 * cc.val = cc.val; omega
    | ⟨1, _⟩ => show win0_0.index t (1 : Fin 3) * 256 + 1 * (j 0).val = win0_7.index t (0 : Fin 2) * 256 + 1 * (j 0).val; omega
    | ⟨2, _⟩ => show win0_0.index t (2 : Fin 3) * 256 + 1 * d.val = d.val; omega
  · intro cc d
    show V m c main_arg0 (((cfg0.win 1).blk t).view.emb (ix3 cc (j 0) d))
      = V m c main_arg0 (ix3 cc ((((cfg0.win 7).blk t).view.emb j) 0) d)
    refine congrArg (V m c main_arg0) (funext fun a => Fin.ext ?_)
    match a with
    | ⟨0, _⟩ => show win0_1.index t (0 : Fin 3) * 16 + 1 * cc.val = cc.val; omega
    | ⟨1, _⟩ => show win0_1.index t (1 : Fin 3) * 256 + 1 * (j 0).val = win0_7.index t (0 : Fin 2) * 256 + 1 * (j 0).val; omega
    | ⟨2, _⟩ => show win0_1.index t (2 : Fin 3) * 256 + 1 * d.val = d.val; omega
  · intro a b
    show V m c main_arg2 (((cfg0.win 2).blk t).view.emb (ix2 a b)) = V m c main_arg2 (ix2 a b)
    refine congrArg (V m c main_arg2) (funext fun ax => Fin.ext ?_)
    match ax with
    | ⟨0, _⟩ => show win0_2.index t (0 : Fin 2) * 256 + 1 * a.val = a.val; omega
    | ⟨1, _⟩ => show win0_2.index t (1 : Fin 2) * 256 + 1 * b.val = b.val; omega
  · intro a
    show V m c main_arg3 (((cfg0.win 3).blk t).view.emb (ix1 a)) = V m c main_arg3 (ix1 a)
    refine congrArg (V m c main_arg3) (funext fun ax => Fin.ext ?_)
    match ax with
    | ⟨0, _⟩ => show win0_3.index t (0 : Fin 1) * 256 + 1 * a.val = a.val; omega
  · intro a b
    show V m c main_arg4 (((cfg0.win 4).blk t).view.emb (ix2 a b)) = V m c main_arg4 (ix2 a b)
    refine congrArg (V m c main_arg4) (funext fun ax => Fin.ext ?_)
    match ax with
    | ⟨0, _⟩ => show win0_4.index t (0 : Fin 2) * 768 + 1 * a.val = a.val; omega
    | ⟨1, _⟩ => show win0_4.index t (1 : Fin 2) * 256 + 1 * b.val = b.val; omega
  · intro a
    show V m c main_arg5 (((cfg0.win 5).blk t).view.emb (ix1 a)) = V m c main_arg5 (ix1 a)
    refine congrArg (V m c main_arg5) (funext fun ax => Fin.ext ?_)
    match ax with
    | ⟨0, _⟩ => show win0_5.index t (0 : Fin 1) * 768 + 1 * a.val = a.val; omega
  · show (j 1).val = win0_7.index t (1 : Fin 2) * 256 + 1 * (j 1).val
    omega

/-- An index of the array is in point `t`'s block iff each coordinate is in the block's range on its axis. -/
theorem mem_blk7 (t : Fin cfg0.N) (i : S16384x256.Idx) :
    i ∈ ((cfg0.win 7).blk t).view.set ↔ ∀ a : Fin 2, win0_7.index t a * S256x256.size a ≤ (i a).val
      ∧ (i a).val < win0_7.index t a * S256x256.size a + S256x256.size a := by
  show i ∈ ((View.whole main_v0_1).slice (win0_7.rect t)).set ↔ _
  rw [View.set_slice_whole, Rect.mem_set_unit]
  exact Iff.rfl

/-- Every index of the array lies in some point's block: row `r` in the block of point `r / 256`. -/
theorem cover7 (i : S16384x256.Idx) :
    ∃ t : Fin cfg0.N, (cfg0.win 7).flush t = true ∧ i ∈ ((cfg0.win 7).blk t).view.set := by
  have hi0 : (i 0).val < 16384 := (i 0).isLt
  have hi1 : (i 1).val < 256 := (i 1).isLt
  obtain ⟨t, ht⟩ := idx_onto7 ⟨(i 0).val / 256, by omega⟩
  have q0 : win0_7.index t (0 : Fin 2) = (i 0).val / 256 := congrFun ht 0
  have q1 : win0_7.index t (1 : Fin 2) = 0 := congrFun ht 1
  refine ⟨t, flush0_7 t, ?_⟩
  rw [mem_blk7]
  intro a
  match a with
  | ⟨0, _⟩ =>
    show win0_7.index t (0 : Fin 2) * 256 ≤ (i 0).val ∧ (i 0).val < win0_7.index t (0 : Fin 2) * 256 + 256
    omega
  | ⟨1, _⟩ =>
    show win0_7.index t (1 : Fin 2) * 256 ≤ (i 1).val ∧ (i 1).val < win0_7.index t (1 : Fin 2) * 256 + 256
    omega

/-- THE ARRAY after the run: the batch of node hidden, as one function of the argument arrays. -/
theorem final7 (c : Dev nD) : (dats m 0 c).arrAt 7 cfg0.N
    = hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 7 (hiddenArr (V m c main_arg0) (V m c main_arg1) (V m c main_arg2) (V m c main_arg3) (V m c main_arg4) (V m c main_arg5)) (fun t _ => flushed7_eq m c t) cover7

/-- THE RUN, READ: every weakly fair execution of the kernel program terminates with the first result array the batch
    of node memories and the second the batch of node hidden states, both of the argument arrays, and the arguments
    unchanged. -/
theorem run : θ_run defs (onTc (τ := τ) (main (F := Ideal))) ⟨m, fun _ => 0, ρ⟩ fun r => ∀ c : Dev nD,
      r.2.mem ((c : Thread nD τ).loc main_v0_0) = memoryArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_1) = hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m c), (h c).2.1.trans (final7 m c), (h c).2.2⟩)
    (Value.run_blocks m ρ)

end Cert.KernelIdeal.CellValue

end
-- ==== Proof.RefCell.lean ====
/-
  The reference program's two results, read at one entry.

  The reference sums the children's hidden states over the child axis (from the starting value `0`), multiplies the
  sums by the gate table contracted on its lane axis, adds the bias, and cuts the three gate ranges out of the `768`
  gate columns at columns `0`, `256` and `512`; it multiplies every child's hidden state by the forget table the same
  way, adds the bias, and sums the gated child memories over the child axis (again from `0`).  It spells the logistic
  function as `1 / (1 + e^(-z))`, which on the extended reals IS the logistic function, infinities included.
  So entry `(r, e)` of its first result is the cell's memory of batch row `r` at lane `e`, and of its second the
  cell's hidden state (CellSpec.lean).
-/
import proofs.«155802_j33990371180854_1_alg».proof.Proof.Gen.ReferenceIdeal.Read
import proofs.«155802_j33990371180854_1_alg».proof.Proof.CellSpec
import Idealize.ShloMosaic.Lib.ValueIdx
import Idealize.ShloMosaic.PureOps.Ideal.Laws

noncomputable section

open scoped BigOperators

namespace Cert.ReferenceIdeal.CellValue

open Cert.ReferenceIdeal Cert.ReferenceIdeal.Read Idealize.ShloMosaic Idealize.ShloMosaic.ValueIdx Cert.ChildSumCell

/-- The single-precision word of `1.0` is the number one. -/
theorem one_f32 : Ideal.ofBits .f32 0x3F800000#32 = 1 := by
  simp [Ideal.ofBits, Ideal.ieee, -EReal.coe_mul]; norm_num

/-- The host's spelling of the logistic function, `1 / (1 + e^(-z))` with both ones the word of `1.0`, is the
    logistic function at every extended real. -/
theorem sigmoid_eq (z : Ideal .f32) :
    FloatOps.hostDivf (F := Ideal) (φ := .f32) (FloatOps.ofBits .f32 0x3F800000#32)
        (FloatOps.addf (FloatOps.ofBits .f32 0x3F800000#32) (FloatOps.hostUnary .exp (FloatOps.hostNegf z)))
      = Ideal.logistic z := by
  show Ideal.div (Ideal.ofBits .f32 0x3F800000#32) (Ideal.ofBits .f32 0x3F800000#32 + Ideal.exp (-z))
    = Ideal.div 1 (1 + Ideal.exp (-z))
  rw [one_f32]

variable (x0 x1 : (⟨S16x16384x256, .f32⟩ : BufTy).Contents (Elt Ideal)) (x2 : (⟨S256x256, .f32⟩ : BufTy).Contents (Elt Ideal))
  (x3 : (⟨S256, .f32⟩ : BufTy).Contents (Elt Ideal)) (x4 : (⟨S768x256, .f32⟩ : BufTy).Contents (Elt Ideal))
  (x5 : (⟨S768, .f32⟩ : BufTy).Contents (Elt Ideal))

/-- The hidden states summed over the child axis, at `(r, d)`. -/
theorem hsum_eq (r : Fin 16384) (d : Fin 256) :
    val_main_v0 (F := Ideal) x1 (ix2 r d) = hiddenSum (rowOf x1 r) d := by
  rw [val_main_v0_apply, val_main_cst_apply]
  show Ideal.ofBits .f32 0x00000000#32 + _ = _
  rw [Ideal.ofBits_zero_f32, zero_add]
  exact Finset.sum_congr rfl fun c _ => congrArg x1 (funext fun a => Fin.ext (by
    match a with
    | ⟨0, _⟩ => rfl
    | ⟨1, _⟩ => rfl
    | ⟨2, _⟩ => rfl))

/-- The gate pre-activations of batch row `r`, at gate column `j`. -/
theorem gate_eq (r : Fin 16384) (j : Fin 768) :
    val_main_v14 (F := Ideal) x1 x4 x5 (ix2 r j) = gate (rowOf x1 r) (tab x4) (vec x5) j := by
  rw [val_main_v14_apply, val_main_v11_apply, val_main_v13_apply, val_main_v12_apply]
  unfold gate
  refine congrArg₂ (· + ·) (Finset.sum_congr rfl fun d _ => congrArg₂ (· * ·) ?_ (congrArg x4 ?_)) (congrArg x5 ?_)
  · exact (congrArg (val_main_v0 (F := Ideal) x1) (funext fun a => Fin.ext (by
      match a with
      | ⟨0, _⟩ => rfl
      | ⟨1, _⟩ => rfl))).trans (hsum_eq x1 r d)
  · funext a
    exact Fin.ext (by
      match a with
      | ⟨0, _⟩ => rfl
      | ⟨1, _⟩ => rfl)
  · funext a
    exact Fin.ext (by
      match a with
      | ⟨0, _⟩ => rfl)

/-- Child `c`'s forget gate for batch row `r`, at lane `e`. -/
theorem forget_eq (c : Fin 16) (r : Fin 16384) (e : Fin 256) :
    val_main_v10 (F := Ideal) x1 x2 x3 (ix3 c r e) = forget (rowOf x1 r) (tab x2) (vec x3) c e := by
  rw [val_main_v10_apply, val_main_v9_apply, val_main_cst_1_apply, val_main_v8_apply, val_main_v7_apply,
    val_main_cst_0_apply, val_main_v6_apply, val_main_v5_apply]
  refine (sigmoid_eq _).trans ?_
  unfold forget
  refine congrArg Ideal.logistic ?_
  rw [val_main_v4_apply, val_main_v1_apply, val_main_v3_apply, val_main_v2_apply]
  refine congrArg₂ (· + ·) (Finset.sum_congr rfl fun d _ => congrArg₂ (· * ·) (congrArg x1 ?_) (congrArg x2 ?_))
    (congrArg x3 ?_)
  · funext a
    exact Fin.ext (by
      match a with
      | ⟨0, _⟩ => rfl
      | ⟨1, _⟩ => rfl
      | ⟨2, _⟩ => rfl)
  · funext a
    exact Fin.ext (by
      match a with
      | ⟨0, _⟩ => rfl
      | ⟨1, _⟩ => rfl)
  · funext a
    exact Fin.ext (by
      match a with
      | ⟨0, _⟩ => rfl)

/-- THE FIRST RESULT is the batch of node memories. -/
theorem memory_eq : val_main_v34 (F := Ideal) x0 x1 x2 x3 x4 x5 = memoryArr x0 x1 x2 x3 x4 x5 := by
  funext i
  obtain ⟨r, e, rfl⟩ : ∃ (r : Fin 16384) (e : Fin 256), i = ix2 r e := ⟨i 0, i 1, eq_ix2 i⟩
  rw [memoryArr_apply, val_main_v34_apply, val_main_v31_apply, val_main_v21_apply, val_main_v20_apply,
    val_main_cst_3_apply, val_main_v19_apply, val_main_v18_apply, val_main_cst_2_apply, val_main_v17_apply,
    val_main_v16_apply, val_main_v15_apply, val_main_v30_apply, val_main_v29_apply, val_main_v33_apply,
    val_main_cst_6_apply, Ideal.hostUnary_tanh_def]
  unfold nodeMemory
  refine congrArg₂ (· + ·) (congrArg₂ (· * ·) ((sigmoid_eq _).trans (congrArg Ideal.logistic ?_))
    (congrArg Ideal.tanh ?_)) ?_
  · exact (congrArg (val_main_v14 (F := Ideal) x1 x4 x5) (funext fun a => Fin.ext (by
      match a with
      | ⟨0, _⟩ => rfl
      | ⟨1, _⟩ => rfl))).trans (gate_eq x1 x4 x5 r (rowI e))
  · exact (congrArg (val_main_v14 (F := Ideal) x1 x4 x5) (funext fun a => Fin.ext (by
      match a with
      | ⟨0, _⟩ => rfl
      | ⟨1, _⟩ => show 512 + e.val = e.val + 512; omega))).trans (gate_eq x1 x4 x5 r (rowU e))
  · show Ideal.ofBits .f32 0x00000000#32 + _ = _
    rw [Ideal.ofBits_zero_f32, zero_add]
    refine Finset.sum_congr rfl fun c _ => ?_
    rw [val_main_v32_apply]
    refine congrArg₂ (· * ·) ?_ (congrArg x0 ?_)
    · exact (congrArg (val_main_v10 (F := Ideal) x1 x2 x3) (funext fun a => Fin.ext (by
        match a with
        | ⟨0, _⟩ => rfl
        | ⟨1, _⟩ => rfl
        | ⟨2, _⟩ => rfl))).trans (forget_eq x1 x2 x3 c r e)
    · funext a
      exact Fin.ext (by
        match a with
        | ⟨0, _⟩ => rfl
        | ⟨1, _⟩ => rfl
        | ⟨2, _⟩ => rfl)

/-- THE SECOND RESULT is the batch of node hidden states. -/
theorem hidden_eq : val_main_v36 (F := Ideal) x0 x1 x2 x3 x4 x5 = hiddenArr x0 x1 x2 x3 x4 x5 := by
  funext i
  obtain ⟨r, e, rfl⟩ : ∃ (r : Fin 16384) (e : Fin 256), i = ix2 r e := ⟨i 0, i 1, eq_ix2 i⟩
  rw [hiddenArr_apply, val_main_v36_apply, val_main_v28_apply, val_main_v27_apply, val_main_cst_5_apply,
    val_main_v26_apply, val_main_v25_apply, val_main_cst_4_apply, val_main_v24_apply, val_main_v23_apply,
    val_main_v22_apply, val_main_v35_apply, Ideal.hostUnary_tanh_def]
  unfold nodeHidden
  refine congrArg₂ (· * ·) ((sigmoid_eq _).trans (congrArg Ideal.logistic ?_)) (congrArg Ideal.tanh ?_)
  · exact (congrArg (val_main_v14 (F := Ideal) x1 x4 x5) (funext fun a => Fin.ext (by
      match a with
      | ⟨0, _⟩ => rfl
      | ⟨1, _⟩ => show 256 + e.val = e.val + 256; omega))).trans (gate_eq x1 x4 x5 r (rowO e))
  · exact (congrFun (memory_eq x0 x1 x2 x3 x4 x5) (ix2 r e)).trans (memoryArr_apply x0 x1 x2 x3 x4 x5 r e)

end Cert.ReferenceIdeal.CellValue

end
-- ==== Proof.lean ====
/-
  The certificate of a child-sum tree-LSTM cell: a tiled kernel against its plain array program.

  Both programs take, for a batch of `16384` nodes with `16` children each, the children's memories and hidden states
  (`[16, 16384, 256]`), a forget table and bias (`[256, 256]`, `[256]`) and a gate table and bias (`[768, 256]`,
  `[768]`), and return the nodes' memories and hidden states (`[16384, 256]` each):

      hs   = ∑ c, h c                         gates = hs · Wᵀ + b   (input | output | update, 256 columns each)
      f c  = σ(h c · Wfᵀ + bf)                memory = σ(input) · tanh(update) + ∑ c, f c · m c
                                              hidden = σ(output) · tanh(memory)

  The kernel works on `64` blocks of `256` nodes; inside a block it sums the children, takes the two products on
  the matrix unit (the `16 · 256` child rows of a block as the rows of one matrix for the forget product), and stores
  the two results.  The reference program does the same over whole arrays, with the logistic function spelt
  `1 / (1 + e^(-z))`.  On the extended reals a change of float format is the identity, a finite sum does not depend
  on its order or grouping, and `1 / (1 + e^(-z))` is the logistic function at every point, so both programs compute
  the same function of the arguments, entry by entry (CellSpec.lean states it; KernelCell.lean and KernelArray.lean
  read it off the kernel, RefCell.lean off the reference).  No step needs the inputs to be finite.

  The kernel's idealization rewrote no operation, so the preservation claim is trivial; the three frames are the
  kernel programs' generated frame proofs and the reference's generated run with its results dropped.
-/
import proofs.«155802_j33990371180854_1_alg».proof.Defs
import proofs.«155802_j33990371180854_1_alg».proof.Proof.Gen.Kernel
import proofs.«155802_j33990371180854_1_alg».proof.Proof.Gen.Kernel.Frame
import proofs.«155802_j33990371180854_1_alg».proof.Proof.Gen.KernelIdeal
import proofs.«155802_j33990371180854_1_alg».proof.Proof.Gen.KernelIdeal.Frame
import proofs.«155802_j33990371180854_1_alg».proof.Proof.Gen.KernelIdeal.Value
import proofs.«155802_j33990371180854_1_alg».proof.Proof.Gen.ReferenceIdeal
import proofs.«155802_j33990371180854_1_alg».proof.Proof.Gen.ReferenceIdeal.Run
import proofs.«155802_j33990371180854_1_alg».proof.Proof.Gen.ReferenceIdeal.Read
import proofs.«155802_j33990371180854_1_alg».proof.Proof.Gen.Pre_finite_inputs
import proofs.«155802_j33990371180854_1_alg».proof.Proof.KernelArray
import proofs.«155802_j33990371180854_1_alg».proof.Proof.RefCell
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Run from memories that agree on the six arguments, the idealized kernel and the reference both end with the batch
    of node memories in the first result and the batch of node hidden states in the second. -/
theorem algebraic : Cert.algebraic_KernelIdeal_ReferenceIdeal := by
  intro m ρ m' ρ' _ hagree
  refine ⟨_, _, Cert.KernelIdeal.CellValue.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · obtain ⟨a0, a1, a2, a3, a4, a5⟩ := hagree c
    rw [a0, a1, a2, a3, a4, a5]
    exact (Cert.ReferenceIdeal.Read.val_main_v34_eq _ _ _ _ _ _).trans
      (Cert.ReferenceIdeal.CellValue.memory_eq _ _ _ _ _ _)
  · obtain ⟨a0, a1, a2, a3, a4, a5⟩ := hagree c
    rw [a0, a1, a2, a3, a4, a5]
    exact (Cert.ReferenceIdeal.Read.val_main_v36_eq _ _ _ _ _ _).trans
      (Cert.ReferenceIdeal.CellValue.hidden_eq _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
